-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 84
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x32, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x32, .f32⟩
  | .hbm, ⟨74, _⟩ => ⟨S1700000x1, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.RunValue.lean ====
/-
  The kernel's run, with every buffer's final contents named.

  The program is seven stretches in a row: three of host operations, the first matrix-product kernel over its
  20 grid points, a stretch of host operations, the second kernel over its 20 points, and a last stretch of host
  operations. The contents of the TensorCore's buffers at each boundary are a fold from the launch memory: a host
  stretch applies its operations; a kernel leaves in each of its arrays what its write-backs leave and every other
  buffer as it found it. Every weakly fair execution terminates without a fault with every unscoped buffer at the
  last value of that fold — in particular the result array, and the six arguments as launched.
-/
import proofs.«170525_j78357383348247_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result array and at the six arguments: the result ends at the fold's last value,
    the arguments as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_all m ρ)

end Cert.KernelIdeal.RunValue

end
-- ==== Proof.BlockProduct.lean ====
/-
  The kernel's two block products, read at an entry.

  At each of its 20 grid points the first kernel multiplies a block of 5000 rows of `x` by the whole 128 × 64
  weight matrix on the matrix unit, from a zero accumulator; the second adds the bias row to a block of 5000
  rows, clamps at zero, and multiplies by the whole 64 × 32 weight matrix. Over the extended reals a change of float
  format is the identity and the matrix product into a zero accumulator is the plain sum over the contracted
  axis, so entry `(p, q)` of the first block product is `∑ k, x p k * w k q` over the 128 columns and of the second
  `∑ k, max (h p k + b 0 k) 0 * w k q` over the 64 columns.
-/
import proofs.«170525_j78357383348247_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ### The first product: a 5000 × 128 block by the 128 × 64 weights -/

theorem lhs0_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs0_mid (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs0_mid (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs0_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The sum over the record's contraction index, re-indexed by the contracted coordinate itself: entry `(p, q)` pairs
    row `p` of the left factor with column `q` of the right one. -/
theorem contr0_sum (l : S5000x128.Idx → EReal) (r : S128x64.Idx → EReal) (p : Fin 5000) (q : Fin 64) :
    (∑ k : dot_S5000x128_S128x64_S5000x64_1_0_0_1_n_n.contr.Idx, l (dot_S5000x128_S128x64_S5000x64_1_0_0_1_n_n.lhsIdx (ix2 p q) k) * r (dot_S5000x128_S128x64_S5000x64_1_0_0_1_n_n.rhsIdx (ix2 p q) k))
      = ∑ k : Fin 128, l (ix2 p k) * r (ix2 k q) := by
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs0_row _ _
    | ⟨1, _⟩ => exact (lhs0_mid _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs0_mid _ _).trans hk
    | ⟨1, _⟩ => exact rhs0_col _ _)
  rw [el, er]

/-! ### The second product: a 5000 × 64 block by the 64 × 32 weights -/

theorem lhs1_row (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs1_mid (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem rhs1_mid (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem rhs1_col (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The sum over the record's contraction index, re-indexed by the contracted coordinate itself: entry `(p, q)` pairs
    row `p` of the left factor with column `q` of the right one. -/
theorem contr1_sum (l : S5000x64.Idx → EReal) (r : S64x32.Idx → EReal) (p : Fin 5000) (q : Fin 32) :
    (∑ k : dot_S5000x64_S64x32_S5000x32_1_0_0_1_n_n.contr.Idx, l (dot_S5000x64_S64x32_S5000x32_1_0_0_1_n_n.lhsIdx (ix2 p q) k) * r (dot_S5000x64_S64x32_S5000x32_1_0_0_1_n_n.rhsIdx (ix2 p q) k))
      = ∑ k : Fin 64, l (ix2 p k) * r (ix2 k q) := by
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs1_row _ _
    | ⟨1, _⟩ => exact (lhs1_mid _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs1_mid _ _).trans hk
    | ⟨1, _⟩ => exact rhs1_col _ _)
  rw [el, er]

/-! ### The payloads -/

/-- Entry `(p, q)` of what the first kernel stores: row `p` of the block of `x` against column `q` of the weights. -/
theorem pay0_apply (x : FVec Ideal S5000x128 .f32) (w : FVec Ideal S128x64 .f32) (p : Fin 5000) (q : Fin 64) :
    k0_pay1 (F := Ideal) x w (ix2 p q) = ∑ k : Fin 128, x (ix2 p k) * w (ix2 k q) := by
  unfold k0_pay1
  simp only [matmul]
  refine (Ideal.matmul_constant_zero_apply dot_S5000x128_S128x64_S5000x64_1_0_0_1_n_n none _ _ (ix2 p q)).trans ?_
  exact contr0_sum _ _ p q

/-- Entry `(p, q)` of what the second kernel stores: row `p` of the block, bias added and clamped at zero, against
    column `q` of the weights. -/
theorem pay1_apply (h : FVec Ideal S5000x64 .f32) (b : FVec Ideal S1x64 .f32) (w : FVec Ideal S64x32 .f32) (p : Fin 5000) (q : Fin 32) :
    k1_pay1 (F := Ideal) h b w (ix2 p q)
      = ∑ k : Fin 64, max (h (ix2 p k) + b (ix2 (0 : Fin 1) k)) 0 * w (ix2 k q) := by
  unfold k1_pay1
  simp only [matmul]
  refine (Ideal.matmul_constant_zero_apply dot_S5000x64_S64x32_S5000x32_1_0_0_1_n_n none _ _ (ix2 p q)).trans ?_
  refine (contr1_sum _ _ p q).trans ?_
  refine Finset.sum_congr rfl fun k _ => ?_
  refine congrArg (· * w (ix2 k q)) ?_
  show max ((shapeCast S5000x64 h shapeCasts_S5000x64_S5000x64) (ix2 p k)
      + (broadcastTo S5000x64 (shapeCast S1x64 b shapeCasts_S1x64_S1x64) broadcasts_S1x64_S5000x64) (ix2 p k))
      (Ideal.ofBits .f32 0x00000000#32) = _
  rw [shapeCast_self, shapeCast_self, broadcastTo_1b_ab_apply, Ideal.ofBits_zero_f32]

end Cert.KernelIdeal.BlockProduct

end
-- ==== Proof.MatProducts.lean ====
/-
  The two matrix products of the network as functions of whole arrays, entry by entry, over the extended reals.

  `prod1 X W` is `X · W` for a 100000 × 128 array and a 128 × 64 matrix: entry `(r, c)` is `∑ k, X r k * W k c`.
  `prod2 H B W` is `max (H + B) 0 · W` for a 100000 × 64 array, a bias held as one row of 64, and a 64 × 32
  matrix: entry `(r, c)` is `∑ k, max (H r k + B 0 k) 0 * W k c`. Both programs compute exactly these two
  functions; each side is brought to this form, so no law of the extended reals beyond the definitions is used.
-/
import Idealize.ShloMosaic.Lib.ValueIdx
import Idealize.ShloMosaic.PureOps.Ideal

noncomputable section

namespace Cert.MatProducts

open Idealize.ShloMosaic Idealize.ShloMosaic.ValueIdx

/-- `X · W`, entry by entry. -/
def prod1 (X : (⟨2, ![100000, 128]⟩ : Shape).Idx → EReal) (W : (⟨2, ![128, 64]⟩ : Shape).Idx → EReal) :
    (⟨2, ![100000, 64]⟩ : Shape).Idx → EReal :=
  fun i => ∑ k : Fin 128, X (ix2 (i 0) k) * W (ix2 k (i 1))

/-- `max (H + B) 0 · W`, entry by entry, the bias `B` one row added to every row of `H`. -/
def prod2 (H : (⟨2, ![100000, 64]⟩ : Shape).Idx → EReal) (B : (⟨2, ![1, 64]⟩ : Shape).Idx → EReal)
    (W : (⟨2, ![64, 32]⟩ : Shape).Idx → EReal) : (⟨2, ![100000, 32]⟩ : Shape).Idx → EReal :=
  fun i => ∑ k : Fin 64, max (H (ix2 (i 0) k) + B (ix2 (0 : Fin 1) k)) 0 * W (ix2 k (i 1))

/-- `max (H + b) 0 · W`, entry by entry, the bias `b` a vector of 64 added to every row of `H`. -/
def biasReluProd (H : (⟨2, ![100000, 64]⟩ : Shape).Idx → EReal) (b : (⟨1, ![64]⟩ : Shape).Idx → EReal)
    (W : (⟨2, ![64, 32]⟩ : Shape).Idx → EReal) : (⟨2, ![100000, 32]⟩ : Shape).Idx → EReal :=
  fun i => ∑ k : Fin 64, max (H (ix2 (i 0) k) + b (ix1 k)) 0 * W (ix2 k (i 1))

/-- A bias held as one row `B` of 64 whose entries are those of the vector `b` gives the same product. -/
theorem prod2_eq_of_row (H : (⟨2, ![100000, 64]⟩ : Shape).Idx → EReal) (B : (⟨2, ![1, 64]⟩ : Shape).Idx → EReal)
    (W : (⟨2, ![64, 32]⟩ : Shape).Idx → EReal) (b : (⟨1, ![64]⟩ : Shape).Idx → EReal)
    (hB : ∀ k : Fin 64, B (ix2 (0 : Fin 1) k) = b (ix1 k)) : prod2 H B W = biasReluProd H b W := by
  funext i
  unfold prod2 biasReluProd
  exact Finset.sum_congr rfl fun k _ => by rw [hB k]

theorem prod1_apply (X : (⟨2, ![100000, 128]⟩ : Shape).Idx → EReal) (W : (⟨2, ![128, 64]⟩ : Shape).Idx → EReal)
    (r : Fin 100000) (c : Fin 64) : prod1 X W (ix2 r c) = ∑ k : Fin 128, X (ix2 r k) * W (ix2 k c) := rfl

theorem prod2_apply (H : (⟨2, ![100000, 64]⟩ : Shape).Idx → EReal) (B : (⟨2, ![1, 64]⟩ : Shape).Idx → EReal)
    (W : (⟨2, ![64, 32]⟩ : Shape).Idx → EReal) (r : Fin 100000) (c : Fin 32) :
    prod2 H B W (ix2 r c) = ∑ k : Fin 64, max (H (ix2 r k) + B (ix2 (0 : Fin 1) k)) 0 * W (ix2 k c) := rfl

end Cert.MatProducts

end
-- ==== Proof.RegionArrays.lean ====
/-
  From blocks to arrays: what each kernel leaves in its output array.

  Both kernels run over 20 grid points; point `t` reads rows `5000 t … 5000 t + 4999` of its first operand, the whole
  of every other operand, and writes back rows `5000 t … 5000 t + 4999` of its output. The block that point `t`
  writes back is therefore block `t` of one function of the whole arrays — the matrix product `prod1`, resp.
  `prod2` — and, the 20 blocks tiling the 100000 rows, the output array ends as that function of the arrays the
  kernel was entered with.
-/
import proofs.«170525_j78357383348247_1_alg».proof.Proof.Gen.KernelIdeal.Frame
import proofs.«170525_j78357383348247_1_alg».proof.Proof.BlockProduct
import proofs.«170525_j78357383348247_1_alg».proof.Proof.MatProducts
import Idealize.ShloMosaic.Lib.Pipeline.Value
import Idealize.ShloMosaic.Lib.ValueIdx

set_option maxRecDepth 16384

noncomputable section

namespace Cert.KernelIdeal.RegionArrays

open Cert.KernelIdeal Cert.KernelIdeal.Gen Cert.KernelIdeal.BlockProduct Cert.MatProducts
open Idealize.ShloMosaic Idealize.ShloMosaic.TcCoe Idealize.ShloMosaic.ValueIdx Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-! ## The first kernel -/

/-- The printed index maps over the grid: point `t` takes block row `t` of `x` and of the output, and block `(0, 0)`
    of the weights. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem onto0 : ∀ q : Fin 20, ∃ t : Fin cfg0.N, win0_2.index t = ![q.val, 0] :=
  (by decide +kernel : ∀ q : Fin 20, ∃ t : Fin grid0.N, win0_2.index t = ![q.val, 0])

/-- At point `t`, entry `(p, q)` of the block product — row `p` of the point's block of `X` against column `q` of `W` — is
    the entry of `X · W` where the output's block puts `(p, q)`. -/
theorem block0_entry (t : Fin cfg0.N) (X : S100000x128.Idx → EReal) (W : S128x64.Idx → EReal) (p : Fin 5000) (q : Fin 64) :
    (∑ k : Fin 128, X (((cfg0.win 0).blk t).view.emb (ix2 p k)) * W (((cfg0.win 1).blk t).view.emb (ix2 k q)))
      = prod1 X W (((cfg0.win 2).blk t).view.emb (ix2 p q)) := by
  obtain ⟨e0, e1, e2, e3, e4, e5⟩ := maps0 t
  show _ = ∑ k : Fin 128, X (ix2 ((((cfg0.win 2).blk t).view.emb (ix2 p q)) 0) k) * W (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (· * ·) (congrArg X h0) (congrArg W h1)

/-- What point `t` writes back is block `t` of the product of the arrays the kernel was entered with. -/
theorem flushed0 (c : Dev nD) (t : Fin cfg0.N) :
    (dat0 V c).flushed 2 t = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = prod1 (V c main_arg0) (V c main_arg2) (((cfg0.win 2).blk t).view.emb (ix2 p q))
  refine (pay0_apply (iblk0 V c 0 t) (iblk0 V c 1 t) p q).trans ?_
  exact block0_entry t (V c main_arg0) (V c main_arg2) p q

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The 20 blocks of 5000 rows tile the 100000 rows: row `r` is in the block of point `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE FIRST KERNEL'S OUTPUT ARRAY after its 20 points: the product of the arrays it was entered with. -/
theorem final0 (c : Dev nD) : (dat0 V c).arrAt 2 cfg0.N = prod1 (V c main_arg0) (V c main_arg2) :=
  (dat0 V c).arrAt_eq_of_cover 2 (prod1 (V c main_arg0) (V c main_arg2)) (fun t _ => flushed0 V c t) cover0

/-! ## The second kernel -/

/-- The printed index maps over the grid: point `t` takes block row `t` of the aggregated features and of the output,
    and block `(0, 0)` of the bias row and of the weights. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row of the output is some point's. -/
theorem onto1 : ∀ q : Fin 20, ∃ t : Fin cfg1.N, win1_3.index t = ![q.val, 0] :=
  (by decide +kernel : ∀ q : Fin 20, ∃ t : Fin grid1.N, win1_3.index t = ![q.val, 0])

/-- At point `t`, entry `(p, q)` of the second block product is the entry of `prod2` where the output's block puts `(p, q)`. -/
theorem block1_entry (t : Fin cfg1.N) (H : S100000x64.Idx → EReal) (B : S1x64.Idx → EReal) (W : S64x32.Idx → EReal) (p : Fin 5000) (q : Fin 32) :
    (∑ k : Fin 64, max (H (((cfg1.win 0).blk t).view.emb (ix2 p k)) + B (((cfg1.win 1).blk t).view.emb (ix2 (0 : Fin 1) k))) 0 * W (((cfg1.win 2).blk t).view.emb (ix2 k q)))
      = prod2 H B W (((cfg1.win 3).blk t).view.emb (ix2 p q)) := by
  obtain ⟨e0, e1, e2, e3, e4, e5, e6, e7⟩ := maps1 t
  show _ = ∑ k : Fin 64, max (H (ix2 ((((cfg1.win 3).blk t).view.emb (ix2 p q)) 0) k) + B (ix2 (0 : Fin 1) k)) 0 * W (ix2 k ((((cfg1.win 3).blk t).view.emb (ix2 p q)) 1))
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 64 + 1 * k.val = k.val; omega
    | ⟨1, _⟩ => show win1_2.index t (1 : Fin 2) * 32 + 1 * q.val = win1_3.index t (1 : Fin 2) * 32 + 1 * q.val; omega
  exact congrArg₂ (· * ·) (congrArg (fun z => max z 0) (congrArg₂ (· + ·) (congrArg H h0) (congrArg B h1))) (congrArg W h2)

/-- What point `t` writes back is block `t` of `prod2` of the arrays the kernel was entered with. -/
theorem flushed1 (c : Dev nD) (t : Fin cfg1.N) :
    (dat1 V c).flushed 3 t = ((cfg1.win 3).blk t).view.read (Elt Ideal) (prod2 (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S5000x64) origin, View.ld_unit_zero (S := S1x64) origin, View.ld_unit_zero (S := S64x32) origin]
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q)
    = prod2 (V c main_v43) (V c main_v44) (V c main_arg4) (((cfg1.win 3).blk t).view.emb (ix2 p q))
  refine (pay1_apply (iblk1 V c 0 t) (iblk1 V c 1 t) (iblk1 V c 2 t) p q).trans ?_
  exact block1_entry t (V c main_v43) (V c main_v44) (V c main_arg4) p q

/-- An index of the output array is in point `t`'s block iff each coordinate is in the block's range on its axis. -/
theorem mem_blk1 (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v45).slice (win1_3.rect t)).set ↔ _
  rw [View.set_slice_whole, Rect.mem_set_unit]
  exact Iff.rfl

/-- The 20 blocks of 5000 rows tile the 100000 rows. -/
theorem cover1 (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- THE SECOND KERNEL'S OUTPUT ARRAY after its 20 points: `prod2` of the arrays it was entered with. -/
theorem final1 (c : Dev nD) : (dat1 V c).arrAt 3 cfg1.N = prod2 (V c main_v43) (V c main_v44) (V c main_arg4) :=
  (dat1 V c).arrAt_eq_of_cover 3 (prod2 (V c main_v43) (V c main_v44) (V c main_arg4)) (fun t _ => flushed1 V c t) cover1

end Cert.KernelIdeal.RegionArrays

end
-- ==== Proof.GraphConv.lean ====
/-
  The graph convolution's host operations, named.

  Both programs add one self loop per node to the edge list, count each node's incoming edges (`deg`), weight an edge
  `(s, d)` by `dinv s * dinv d` with `dinv = deg^(-1/2)` where the degree is positive and `0` elsewhere (`edgeWeight`), and
  aggregate a feature array over the edges: row `s` gathered, scaled by the edge's weight, and summed into row `d`
  (`agg64`, `agg32` for 64 and 32 features). The network is
    `addBias32 (agg32 (max (agg64 (x · W1) + b1) 0 · W2)) b2`.
  These operations are the same text in the two programs; they are named here so that the comparison never opens a
  gather or a scatter: the two sides differ only in how the two matrix products are computed. `result_eq` reads the
  reference's composed result as this composition.
-/
import proofs.«170525_j78357383348247_1_alg».proof.Proof.RefRunPatched

noncomputable section

namespace Cert.ReferenceIdeal.GraphConv

open Cert.ReferenceIdeal Cert.ReferenceIdeal.Gen Idealize.ShloMosaic Idealize.ShloMosaic.TcCoe Idealize.SL.Sem Idealize.ShloMosaic.StableHlo

variable {F : FTy → Type} [FloatOps F]

/-- An endpoint per edge and per self loop. -/
abbrev Ends (F : FTy → Type) : Type := (⟨S1700000, .i32⟩ : BufTy).Contents (Elt F)
/-- A coefficient per edge and per self loop. -/
abbrev Coefs (F : FTy → Type) : Type := (⟨S1700000, .f32⟩ : BufTy).Contents (Elt F)

/-- The edges' sources (row 0 of the edge list), then node `v` for the self loop of `v`. -/
def src (e : (⟨S2x1600000, .i32⟩ : BufTy).Contents (Elt F)) : Ends F :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets (row 1 of the edge list), then node `v` for the self loop of `v`. -/
def dst (e : (⟨S2x1600000, .i32⟩ : BufTy).Contents (Elt F)) : Ends F :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index counts from the end: `r + 100000` where `r < 0`. -/
def wrap (r : Ends F) : Ends F :=
  select (cmpi .slt r (broadcastInDim S1700000 ![] bcast_S_S1700000 (constantI S_ 32 0#32))) (addi r (broadcastInDim S1700000 ![] bcast_S_S1700000 (constantI S_ 32 100000#32))) r

/-- The number of edges (self loop included) into each node: ones summed at the targets. -/
def deg (d : Ends F) : (⟨S100000, .f32⟩ : BufTy).Contents (Elt F) :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 d) (broadcastInDim S1700000 ![] bcast_S_S1700000 (constant (F := F) S_ .f32 0x3F800000#32))

/-- `deg^(-1/2)` where the degree is positive, `0` elsewhere. -/
def dinv (d : Ends F) : (⟨S100000, .f32⟩ : BufTy).Contents (Elt F) :=
  select (cmpf (F := F) .ogt (deg d) (broadcastInDim S100000 ![] bcast_S_S100000 (constant (F := F) S_ .f32 0x00000000#32))) (Host.rsqrt (deg d)) (broadcastInDim S100000 ![] bcast_S_S100000 (id (constant (F := F) S_ .f32 0x00000000#32)))

/-- An edge's weight: `dinv` at its source times `dinv` at its target. -/
def edgeWeight (s d : Ends F) : Coefs F :=
  mulf (Host.gather gather_S100000_S1700000x1_S1700000_n_0_n_n_0_1_1 (dinv d) (broadcastInDim S1700000x1 ![0] bcast_S1700000_S1700000x1_0 (wrap s)))
    (Host.gather gather_S100000_S1700000x1_S1700000_n_0_n_n_0_1_1 (dinv d) (broadcastInDim S1700000x1 ![0] bcast_S1700000_S1700000x1_0 (wrap d)))

/-- 64 features aggregated over the edges: row `s` of `h` scaled by the edge's weight, summed into row `d`. -/
def agg64 (h : (⟨S100000x64, .f32⟩ : BufTy).Contents (Elt F)) (s d : Ends F) (n : Coefs F) : (⟨S100000x64, .f32⟩ : BufTy).Contents (Elt F) :=
  Host.scatterAdd scatter_S100000x64_S1700000x1_S1700000x64_1_0_0_1 (broadcastInDim S100000x64 ![] bcast_S_S100000x64 (constant (F := F) S_ .f32 0x00000000#32)) (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (wrap s)))
      (broadcastInDim S1700000x64 ![0, 1] bcast_S1700000x1_S1700000x64_0_1 (broadcastInDim S1700000x1 ![0] bcast_S1700000_S1700000x1_0 n)))

/-- 32 features aggregated over the edges. -/
def agg32 (h : (⟨S100000x32, .f32⟩ : BufTy).Contents (Elt F)) (s d : Ends F) (n : Coefs F) : (⟨S100000x32, .f32⟩ : BufTy).Contents (Elt F) :=
  Host.scatterAdd scatter_S100000x32_S1700000x1_S1700000x32_1_0_0_1 (broadcastInDim S100000x32 ![] bcast_S_S100000x32 (constant (F := F) S_ .f32 0x00000000#32)) (broadcastInDim S1700000x1 ![0] bcast_S1700000_S1700000x1_0 d)
    (mulf (Host.gather gather_S100000x32_S1700000x1_S1700000x32_1_0_n_n_0_1_132 h (broadcastInDim S1700000x1 ![0] bcast_S1700000_S1700000x1_0 (wrap s)))
      (broadcastInDim S1700000x32 ![0, 1] bcast_S1700000x1_S1700000x32_0_1 (broadcastInDim S1700000x1 ![0] bcast_S1700000_S1700000x1_0 n)))

/-- The first layer's bias added along the rows, then clamped at zero. -/
def biasRelu64 (h : (⟨S100000x64, .f32⟩ : BufTy).Contents (Elt F)) (b : (⟨S64, .f32⟩ : BufTy).Contents (Elt F)) : (⟨S100000x64, .f32⟩ : BufTy).Contents (Elt F) :=
  maximumf (addf h (broadcastInDim S100000x64 ![0, 1] bcast_S1x64_S100000x64_0_1 (broadcastInDim S1x64 ![1] bcast_S64_S1x64_1 b))) (broadcastInDim S100000x64 ![] bcast_S_S100000x64 (constant (F := F) S_ .f32 0x00000000#32))

/-- The second layer's bias added along the rows. -/
def addBias32 (y : (⟨S100000x32, .f32⟩ : BufTy).Contents (Elt F)) (b : (⟨S32, .f32⟩ : BufTy).Contents (Elt F)) : (⟨S100000x32, .f32⟩ : BufTy).Contents (Elt F) :=
  addf y (broadcastInDim S100000x32 ![0, 1] bcast_S1x32_S100000x32_0_1 (broadcastInDim S1x32 ![1] bcast_S32_S1x32_1 b))

set_option maxRecDepth 8192 in
/-- The reference's result is the two layers composed: its products on the host, everything else the named operations. -/
theorem result_eq (m : (ℓ : Loc nD τ sig) → Buf (Elt F) ℓ) (c : Dev nD) :
    Cert.ReferenceIdeal.ValueP.res_main_v64 (F := F) m c
      = addBias32
          (agg32
            (Host.dotGeneral dot_S100000x64_S64x32_S100000x32_1_0_0_1_n_n none
              (biasRelu64
                (agg64 (Host.dotGeneral dot_S100000x128_S128x64_S100000x64_1_0_0_1_n_n none (m ((c.tc : Thread nD τ).loc main_arg0)) (m ((c.tc : Thread nD τ).loc main_arg2)))
                  (src (m ((c.tc : Thread nD τ).loc main_arg1))) (dst (m ((c.tc : Thread nD τ).loc main_arg1))) (edgeWeight (src (m ((c.tc : Thread nD τ).loc main_arg1))) (dst (m ((c.tc : Thread nD τ).loc main_arg1)))))
                (m ((c.tc : Thread nD τ).loc main_arg3)))
              (m ((c.tc : Thread nD τ).loc main_arg4)))
            (src (m ((c.tc : Thread nD τ).loc main_arg1))) (dst (m ((c.tc : Thread nD τ).loc main_arg1))) (edgeWeight (src (m ((c.tc : Thread nD τ).loc main_arg1))) (dst (m ((c.tc : Thread nD τ).loc main_arg1)))))
          (m ((c.tc : Thread nD τ).loc main_arg5)) := by
  unfold Cert.ReferenceIdeal.ValueP.res_main_v64 addBias32 agg32 biasRelu64 agg64 edgeWeight dinv deg wrap src dst
  rfl

end Cert.ReferenceIdeal.GraphConv

end
-- ==== Proof.KernelFold.lean ====
/-
  The kernel's host side, stretch by stretch: what the buffers hold at each boundary of the run.

  Before the first kernel the host builds, from the edge list alone, the edges' sources and targets with the self
  loops appended and the edges' weights. The first kernel leaves `x · W1` in its output array. The host then
  aggregates that array over the edges and reshapes the first bias to one row. The second kernel leaves
  `max (h + b1) 0 · W2` of the aggregated array. The host aggregates again and adds the second bias. Reading the
  fold of the run's boundaries at the result array gives the network's value as one term of the six arguments.
-/
import proofs.«170525_j78357383348247_1_alg».proof.Proof.Gen.KernelIdeal.Frame
import proofs.«170525_j78357383348247_1_alg».proof.Proof.RegionArrays
import proofs.«170525_j78357383348247_1_alg».proof.Proof.GraphConv
import proofs.«170525_j78357383348247_1_alg».proof.Proof.MatProducts
import Idealize.ShloMosaic.Lib.StableHlo.Run

set_option maxRecDepth 16384

noncomputable section

namespace Cert.KernelIdeal.Fold

open Cert.KernelIdeal Cert.KernelIdeal.Gen Cert.KernelIdeal.RegionArrays Cert.MatProducts
open Cert.ReferenceIdeal.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first kernel -/

/-- No host operation before the first kernel writes an argument. -/
theorem W3_main_arg0 : W3 m ρ c (Proc.devRef .tc main_arg0) = (m ((c : Thread nD τ).loc main_arg0)) := by
  dsimp only [W3, W2, W1, hostOps0, hostOps0_1, hostOps0_2]
  after_results_simp
/-- No host operation before the first kernel writes an argument. -/
theorem W3_main_arg1 : W3 m ρ c (Proc.devRef .tc main_arg1) = (m ((c : Thread nD τ).loc main_arg1)) := by
  dsimp only [W3, W2, W1, hostOps0, hostOps0_1, hostOps0_2]
  after_results_simp
/-- No host operation before the first kernel writes an argument. -/
theorem W3_main_arg2 : W3 m ρ c (Proc.devRef .tc main_arg2) = (m ((c : Thread nD τ).loc main_arg2)) := by
  dsimp only [W3, W2, W1, hostOps0, hostOps0_1, hostOps0_2]
  after_results_simp
/-- No host operation before the first kernel writes an argument. -/
theorem W3_main_arg3 : W3 m ρ c (Proc.devRef .tc main_arg3) = (m ((c : Thread nD τ).loc main_arg3)) := by
  dsimp only [W3, W2, W1, hostOps0, hostOps0_1, hostOps0_2]
  after_results_simp
/-- No host operation before the first kernel writes an argument. -/
theorem W3_main_arg4 : W3 m ρ c (Proc.devRef .tc main_arg4) = (m ((c : Thread nD τ).loc main_arg4)) := by
  dsimp only [W3, W2, W1, hostOps0, hostOps0_1, hostOps0_2]
  after_results_simp
/-- No host operation before the first kernel writes an argument. -/
theorem W3_main_arg5 : W3 m ρ c (Proc.devRef .tc main_arg5) = (m ((c : Thread nD τ).loc main_arg5)) := by
  dsimp only [W3, W2, W1, hostOps0, hostOps0_1, hostOps0_2]
  after_results_simp

/-- The sources, self loops appended. -/
theorem W3_src : W3 m ρ c (Proc.devRef .tc main_v3) = src (m ((c : Thread nD τ).loc main_arg1)) := by
  dsimp only [W3, W2, W1, hostOps0, hostOps0_1, hostOps0_2]
  after_results_simp
  unfold src
  rfl

/-- The targets, self loops appended. -/
theorem W3_dst : W3 m ρ c (Proc.devRef .tc main_v6) = dst (m ((c : Thread nD τ).loc main_arg1)) := by
  dsimp only [W3, W2, W1, hostOps0, hostOps0_1, hostOps0_2]
  after_results_simp
  unfold dst
  rfl

/-- The buffers once the first seven host operations have run: the sources and the targets, self loops appended, are
    in place; the remaining operations before the first kernel read the edge list only through them. -/
def ends : Valuation τ sig (Elt Ideal) := StableHlo.after (List.take 7 (hostOps0 (F := Ideal))) (W0 m ρ c)

theorem ends_src : ends m ρ c (Proc.devRef .tc main_v3) = src (m ((c : Thread nD τ).loc main_arg1)) := by
  unfold ends
  simp only [hostOps0, List.take_succ_cons, List.take_zero]
  after_results_simp
  unfold src
  rfl

theorem ends_dst : ends m ρ c (Proc.devRef .tc main_v6) = dst (m ((c : Thread nD τ).loc main_arg1)) := by
  unfold ends
  simp only [hostOps0, List.take_succ_cons, List.take_zero]
  after_results_simp
  unfold dst
  rfl

/-- The first stretch is its first seven operations, then the rest. -/
theorem W1_split : W1 m ρ c = StableHlo.after (List.drop 7 (hostOps0 (F := Ideal))) (ends m ρ c) := by
  unfold ends
  rw [← StableHlo.after_append, List.take_append_drop]

section FromEnds

variable (V : Valuation τ sig (Elt Ideal))

/-! The host operations between the sources and targets and the first kernel, one stretch at a time and from ANY
    contents `V`, in the kernel program's own spelling. -/

/-- Where the degree is positive. -/
theorem degree_pos : StableHlo.after (List.drop 7 (hostOps0 (F := Ideal))) V (Proc.devRef .tc main_v12)
    = cmpf (F := Ideal) .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (V (Proc.devRef .tc main_v6))) (broadcastInDim S1700000 ![] bcast_S_S1700000 (constant (F := Ideal) S_ .f32 0x3F800000#32))) (broadcastInDim S100000 ![] bcast_S_S100000 (constant (F := Ideal) S_ .f32 0x00000000#32)) := by
  simp only [hostOps0, List.drop_succ_cons, List.drop_zero]
  after_results_simp <;> rfl
/-- The degree to the power `-1/2`. -/
theorem degree_rsqrt : StableHlo.after (List.drop 7 (hostOps0 (F := Ideal))) V (Proc.devRef .tc main_v13) = Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (V (Proc.devRef .tc main_v6))) (broadcastInDim S1700000 ![] bcast_S_S1700000 (constant (F := Ideal) S_ .f32 0x3F800000#32))) := by
  simp only [hostOps0, List.drop_succ_cons, List.drop_zero]
  after_results_simp <;> rfl
/-- The value taken where the degree is not positive. -/
theorem degree_else : StableHlo.after (List.drop 7 (hostOps0 (F := Ideal))) V (Proc.devRef .tc main_cst_2) = (constant (F := Ideal) S_ .f32 0x00000000#32) := by
  simp only [hostOps0, List.drop_succ_cons, List.drop_zero]
  after_results_simp <;> rfl
theorem rest0_src : StableHlo.after (List.drop 7 (hostOps0 (F := Ideal))) V (Proc.devRef .tc main_v3) = (V (Proc.devRef .tc main_v3)) := by
  simp only [hostOps0, List.drop_succ_cons, List.drop_zero]
  after_results_simp <;> rfl
theorem rest0_dst : StableHlo.after (List.drop 7 (hostOps0 (F := Ideal))) V (Proc.devRef .tc main_v6) = (V (Proc.devRef .tc main_v6)) := by
  simp only [hostOps0, List.drop_succ_cons, List.drop_zero]
  after_results_simp <;> rfl

set_option maxRecDepth 8192 in
/-- The call to `where`: the first value where the comparison holds, the broadcast scalar elsewhere. -/
theorem where_result : StableHlo.after hostOps0_1 V (Proc.devRef .tc main_v14)
    = select (V (Proc.devRef .tc main_v12)) (V (Proc.devRef .tc main_v13)) (broadcastInDim S100000 ![] bcast_S_S100000 (id (V (Proc.devRef .tc main_cst_2)))) := by
  simp only [hostOps0_1]
  after_results_simp <;> rfl
theorem where_src : StableHlo.after hostOps0_1 V (Proc.devRef .tc main_v3) = (V (Proc.devRef .tc main_v3)) := by
  simp only [hostOps0_1]
  after_results_simp <;> rfl
theorem where_dst : StableHlo.after hostOps0_1 V (Proc.devRef .tc main_v6) = (V (Proc.devRef .tc main_v6)) := by
  simp only [hostOps0_1]
  after_results_simp <;> rfl

/-- An edge's weight from the per-node factor `V main_v14`: the factor at the source times the factor at the target. -/
theorem weight_of_factor : StableHlo.after hostOps0_2 V (Proc.devRef .tc main_v29)
    = (mulf (F := Ideal) (Host.gather gather_S100000_S1700000x1_S1700000_n_0_n_n_0_1_1 ((V (Proc.devRef .tc main_v14)) : FVec Ideal S100000 .f32) (broadcastInDim S1700000x1 ![0] bcast_S1700000_S1700000x1_0 (wrap (V (Proc.devRef .tc main_v3)))))
        (Host.gather gather_S100000_S1700000x1_S1700000_n_0_n_n_0_1_1 ((V (Proc.devRef .tc main_v14)) : FVec Ideal S100000 .f32) (broadcastInDim S1700000x1 ![0] bcast_S1700000_S1700000x1_0 (wrap (V (Proc.devRef .tc main_v6))))) : FVec Ideal S1700000 .f32) := by
  simp only [hostOps0_2]
  after_results_simp
  unfold wrap
  rfl

/-- The three stretches in a row: the per-node factor is `deg^(-1/2)` where the degree is positive and zero elsewhere, the
    degree counted at the targets `V` holds; an edge's weight is the factor at its source times the factor at its target. -/
theorem weight_from : StableHlo.after hostOps0_2 (StableHlo.after hostOps0_1 (StableHlo.after (List.drop 7 (hostOps0 (F := Ideal))) V)) (Proc.devRef .tc main_v29)
    = mulf (Host.gather gather_S100000_S1700000x1_S1700000_n_0_n_n_0_1_1 (select (cmpf (F := Ideal) .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (V (Proc.devRef .tc main_v6))) (broadcastInDim S1700000 ![] bcast_S_S1700000 (constant (F := Ideal) S_ .f32 0x3F800000#32))) (broadcastInDim S100000 ![] bcast_S_S100000 (constant (F := Ideal) S_ .f32 0x00000000#32))) (Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (V (Proc.devRef .tc main_v6))) (broadcastInDim S1700000 ![] bcast_S_S1700000 (constant (F := Ideal) S_ .f32 0x3F800000#32)))) (broadcastInDim S100000 ![] bcast_S_S100000 (id (constant (F := Ideal) S_ .f32 0x00000000#32)))) (broadcastInDim S1700000x1 ![0] bcast_S1700000_S1700000x1_0 (wrap (V (Proc.devRef .tc main_v3))))) (Host.gather gather_S100000_S1700000x1_S1700000_n_0_n_n_0_1_1 (select (cmpf (F := Ideal) .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (V (Proc.devRef .tc main_v6))) (broadcastInDim S1700000 ![] bcast_S_S1700000 (constant (F := Ideal) S_ .f32 0x3F800000#32))) (broadcastInDim S100000 ![] bcast_S_S100000 (constant (F := Ideal) S_ .f32 0x00000000#32))) (Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (V (Proc.devRef .tc main_v6))) (broadcastInDim S1700000 ![] bcast_S_S1700000 (constant (F := Ideal) S_ .f32 0x3F800000#32)))) (broadcastInDim S100000 ![] bcast_S_S100000 (id (constant (F := Ideal) S_ .f32 0x00000000#32)))) (broadcastInDim S1700000x1 ![0] bcast_S1700000_S1700000x1_0 (wrap (V (Proc.devRef .tc main_v6))))) := by
  have a12 := degree_pos V
  have a13 := degree_rsqrt V
  have ac := degree_else V
  have a3 := rest0_src V
  have a6 := rest0_dst V
  generalize StableHlo.after (List.drop 7 (hostOps0 (F := Ideal))) V = Y at a12 a13 ac a3 a6 ⊢
  have b14 := where_result Y
  have b3 := where_src Y
  have b6 := where_dst Y
  generalize StableHlo.after hostOps0_1 Y = X at b14 b3 b6 ⊢
  rw [weight_of_factor X, b14, b3, b6, a12, a13, ac, a3, a6]

end FromEnds

/-- The weights spelt with the kernel program's records and facts are the weights: the two programs declare the same
    dimension numbers and shapes, each under its own names. -/
theorem weight_eq (s d : Ends Ideal) : (mulf (Host.gather gather_S100000_S1700000x1_S1700000_n_0_n_n_0_1_1 (select (cmpf (F := Ideal) .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))) (broadcastInDim S100000 ![] bcast_S_S100000 (constant (F := Ideal) S_ .f32 0x00000000#32))) (Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32)))) (broadcastInDim S100000 ![] bcast_S_S100000 (id (constant (F := Ideal) S_ .f32 0x00000000#32)))) (broadcastInDim S1700000x1 ![0] bcast_S1700000_S1700000x1_0 (wrap s))) (Host.gather gather_S100000_S1700000x1_S1700000_n_0_n_n_0_1_1 (select (cmpf (F := Ideal) .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))) (broadcastInDim S100000 ![] bcast_S_S100000 (constant (F := Ideal) S_ .f32 0x00000000#32))) (Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32)))) (broadcastInDim S100000 ![] bcast_S_S100000 (id (constant (F := Ideal) S_ .f32 0x00000000#32)))) (broadcastInDim S1700000x1 ![0] bcast_S1700000_S1700000x1_0 (wrap d)))) = edgeWeight s d := by
  unfold edgeWeight dinv deg
  rfl

/-- The edges' weights before the first kernel. -/
theorem W3_norm : W3 m ρ c (Proc.devRef .tc main_v29) = edgeWeight (src (m ((c : Thread nD τ).loc main_arg1))) (dst (m ((c : Thread nD τ).loc main_arg1))) := by
  have h0 : W3 m ρ c (Proc.devRef .tc main_v29)
      = StableHlo.after hostOps0_2 (StableHlo.after hostOps0_1 (StableHlo.after (List.drop 7 (hostOps0 (F := Ideal))) (ends m ρ c))) (Proc.devRef .tc main_v29) := by
    show StableHlo.after hostOps0_2 (StableHlo.after hostOps0_1 (W1 m ρ c)) (Proc.devRef .tc main_v29) = _
    rw [W1_split]
  exact h0.trans ((weight_from (ends m ρ c)).trans ((weight_eq _ _).trans
    (congrArg₂ edgeWeight (ends_src m ρ c) (ends_dst m ρ c))))

/-! ## After the first kernel -/

/-- The first kernel's output array: the product of `x` with the first weights. -/
theorem W4_prod : W4 m ρ c (Proc.devRef .tc main_v30) = prod1 (m ((c : Thread nD τ).loc main_arg0)) (m ((c : Thread nD τ).loc main_arg2)) := by
  refine (W4_arr m ρ c 2).trans ((final0 (V3 m ρ) c).trans ?_)
  show prod1 (W3 m ρ c (Proc.devRef .tc main_arg0)) (W3 m ρ c (Proc.devRef .tc main_arg2)) = _
  rw [W3_main_arg0, W3_main_arg2]

/-- The first kernel writes nothing but its output array. -/
theorem W4_keep (b : Ref sig .tc) (hb : ∀ w, Pipeline.arrRef spec0 w ≠ b) : W4 m ρ c (Proc.devRef .tc b) = W3 m ρ c (Proc.devRef .tc b) :=
  W4_of_ne m ρ c b hb

/-! ## Between the kernels -/

/-- The first layer aggregated over the edges. -/
theorem W5_agg : W5 m ρ c (Proc.devRef .tc main_v43)
    = agg64 (W4 m ρ c (Proc.devRef .tc main_v30)) (W4 m ρ c (Proc.devRef .tc main_v3)) (W4 m ρ c (Proc.devRef .tc main_v6)) (W4 m ρ c (Proc.devRef .tc main_v29)) := by
  dsimp only [W5, hostOps1]
  after_results_simp
  unfold agg64 wrap
  rfl

/-- The first bias as one row. -/
theorem W5_bias : W5 m ρ c (Proc.devRef .tc main_v44) = shapeCast S1x64 (W4 m ρ c (Proc.devRef .tc main_arg3)) shapeCasts_S64_S1x64 := by
  dsimp only [W5, hostOps1]
  after_results_simp
  rfl

/-- The stretch between the kernels does not write this buffer. -/
theorem W5_main_arg4 : W5 m ρ c (Proc.devRef .tc main_arg4) = W4 m ρ c (Proc.devRef .tc main_arg4) := by
  dsimp only [W5, hostOps1]
  after_results_simp
/-- The stretch between the kernels does not write this buffer. -/
theorem W5_main_arg5 : W5 m ρ c (Proc.devRef .tc main_arg5) = W4 m ρ c (Proc.devRef .tc main_arg5) := by
  dsimp only [W5, hostOps1]
  after_results_simp
/-- The stretch between the kernels does not write this buffer. -/
theorem W5_main_v3 : W5 m ρ c (Proc.devRef .tc main_v3) = W4 m ρ c (Proc.devRef .tc main_v3) := by
  dsimp only [W5, hostOps1]
  after_results_simp
/-- The stretch between the kernels does not write this buffer. -/
theorem W5_main_v6 : W5 m ρ c (Proc.devRef .tc main_v6) = W4 m ρ c (Proc.devRef .tc main_v6) := by
  dsimp only [W5, hostOps1]
  after_results_simp
/-- The stretch between the kernels does not write this buffer. -/
theorem W5_main_v29 : W5 m ρ c (Proc.devRef .tc main_v29) = W4 m ρ c (Proc.devRef .tc main_v29) := by
  dsimp only [W5, hostOps1]
  after_results_simp

/-! ## After the second kernel -/

/-- The second kernel's output array. -/
theorem W6_prod : W6 m ρ c (Proc.devRef .tc main_v45)
    = prod2 (W5 m ρ c (Proc.devRef .tc main_v43)) (W5 m ρ c (Proc.devRef .tc main_v44)) (W5 m ρ c (Proc.devRef .tc main_arg4)) :=
  (W6_arr m ρ c 3).trans (final1 (V5 m ρ) c)

/-- The second kernel writes nothing but its output array. -/
theorem W6_keep (b : Ref sig .tc) (hb : ∀ w, Pipeline.arrRef spec1 w ≠ b) : W6 m ρ c (Proc.devRef .tc b) = W5 m ρ c (Proc.devRef .tc b) :=
  W6_of_ne m ρ c b hb

/-! ## The last stretch -/

/-- The second layer aggregated over the edges, the second bias added. -/
theorem W7_out : W7 m ρ c (Proc.devRef .tc main_v61)
    = addBias32 (agg32 (W6 m ρ c (Proc.devRef .tc main_v45)) (W6 m ρ c (Proc.devRef .tc main_v3)) (W6 m ρ c (Proc.devRef .tc main_v6)) (W6 m ρ c (Proc.devRef .tc main_v29)))
        (W6 m ρ c (Proc.devRef .tc main_arg5)) := by
  dsimp only [W7, hostOps2]
  after_results_simp
  unfold addBias32 agg32 wrap
  rfl

/-! ## The whole fold -/

/-- A buffer that neither kernel nor the stretch between them writes holds, at the last boundary, what it held before the first kernel. -/
theorem W6_back (b : Ref sig .tc) (h1 : ∀ w, Pipeline.arrRef spec1 w ≠ b) (h5 : W5 m ρ c (Proc.devRef .tc b) = W4 m ρ c (Proc.devRef .tc b))
    (h0 : ∀ w, Pipeline.arrRef spec0 w ≠ b) : W6 m ρ c (Proc.devRef .tc b) = W3 m ρ c (Proc.devRef .tc b) :=
  (W6_keep m ρ c b h1).trans (h5.trans (W4_keep m ρ c b h0))

/-- THE KERNEL'S RESULT as one term of its six arguments: two layers of graph convolution, the matrix products the
    functions `prod1` and `prod2` of whole arrays. -/
theorem result : W7 m ρ c (Proc.devRef .tc main_v61)
    = addBias32
        (agg32
          (prod2
            (agg64 (prod1 (m ((c : Thread nD τ).loc main_arg0)) (m ((c : Thread nD τ).loc main_arg2)))
              (src (m ((c : Thread nD τ).loc main_arg1))) (dst (m ((c : Thread nD τ).loc main_arg1))) (edgeWeight (src (m ((c : Thread nD τ).loc main_arg1))) (dst (m ((c : Thread nD τ).loc main_arg1)))))
            (shapeCast S1x64 (m ((c : Thread nD τ).loc main_arg3)) shapeCasts_S64_S1x64)
            (m ((c : Thread nD τ).loc main_arg4)))
          (src (m ((c : Thread nD τ).loc main_arg1))) (dst (m ((c : Thread nD τ).loc main_arg1))) (edgeWeight (src (m ((c : Thread nD τ).loc main_arg1))) (dst (m ((c : Thread nD τ).loc main_arg1)))))
        (m ((c : Thread nD τ).loc main_arg5)) := by
  have s6 : W6 m ρ c (Proc.devRef .tc main_v3) = src (m ((c : Thread nD τ).loc main_arg1)) :=
    (W6_back m ρ c main_v3 (by decide) (W5_main_v3 m ρ c) (by decide)).trans (W3_src m ρ c)
  have d6 : W6 m ρ c (Proc.devRef .tc main_v6) = dst (m ((c : Thread nD τ).loc main_arg1)) :=
    (W6_back m ρ c main_v6 (by decide) (W5_main_v6 m ρ c) (by decide)).trans (W3_dst m ρ c)
  have n6 : W6 m ρ c (Proc.devRef .tc main_v29) = edgeWeight (src (m ((c : Thread nD τ).loc main_arg1))) (dst (m ((c : Thread nD τ).loc main_arg1))) :=
    (W6_back m ρ c main_v29 (by decide) (W5_main_v29 m ρ c) (by decide)).trans (W3_norm m ρ c)
  have b6 : W6 m ρ c (Proc.devRef .tc main_arg5) = (m ((c : Thread nD τ).loc main_arg5)) :=
    (W6_back m ρ c main_arg5 (by decide) (W5_main_arg5 m ρ c) (by decide)).trans (W3_main_arg5 m ρ c)
  have s4 : W4 m ρ c (Proc.devRef .tc main_v3) = src (m ((c : Thread nD τ).loc main_arg1)) := (W4_keep m ρ c main_v3 (by decide)).trans (W3_src m ρ c)
  have d4 : W4 m ρ c (Proc.devRef .tc main_v6) = dst (m ((c : Thread nD τ).loc main_arg1)) := (W4_keep m ρ c main_v6 (by decide)).trans (W3_dst m ρ c)
  have n4 : W4 m ρ c (Proc.devRef .tc main_v29) = edgeWeight (src (m ((c : Thread nD τ).loc main_arg1))) (dst (m ((c : Thread nD τ).loc main_arg1))) :=
    (W4_keep m ρ c main_v29 (by decide)).trans (W3_norm m ρ c)
  have b4 : W4 m ρ c (Proc.devRef .tc main_arg3) = (m ((c : Thread nD τ).loc main_arg3)) := (W4_keep m ρ c main_arg3 (by decide)).trans (W3_main_arg3 m ρ c)
  have w4 : W5 m ρ c (Proc.devRef .tc main_arg4) = (m ((c : Thread nD τ).loc main_arg4)) :=
    (W5_main_arg4 m ρ c).trans ((W4_keep m ρ c main_arg4 (by decide)).trans (W3_main_arg4 m ρ c))
  rw [W7_out, W6_prod, s6, d6, n6, b6, W5_agg, W5_bias, w4, W4_prod, s4, d4, n4, b4]

end Cert.KernelIdeal.Fold

end
-- ==== Proof.RefProducts.lean ====
/-
  The reference's two matrix products, entry by entry.

  On the host the reference multiplies the whole 100000 × 128 array by the 128 × 64 weights, and later the whole
  100000 × 64 array — bias added along the rows, clamped at zero — by the 64 × 32 weights, each as one
  `dot_general` contracting the left factor's columns with the right factor's rows. Over the extended reals such a
  product is the plain sum over the contracted axis: the functions `prod1` and `biasReluProd`.
-/
import proofs.«170525_j78357383348247_1_alg».proof.Proof.Gen.ReferenceIdeal
import proofs.«170525_j78357383348247_1_alg».proof.Proof.MatProducts
import Idealize.ShloMosaic.Lib.ValueIdx
import Idealize.ShloMosaic.Lib.Pipeline.Value
import Idealize.ShloMosaic.PureOps.Ideal.Laws

noncomputable section

namespace Cert.ReferenceIdeal.Products

open Cert.ReferenceIdeal Cert.ReferenceIdeal.Gen Cert.MatProducts Idealize.ShloMosaic Idealize.ShloMosaic.ValueIdx

/-! ### The first product: the 100000 × 128 array by the 128 × 64 weights -/

theorem lhs0_row (j : S100000x64.Idx) (q : dot_S100000x128_S128x64_S100000x64_1_0_0_1_n_n.contr.Idx) :
    (dot_S100000x128_S128x64_S100000x64_1_0_0_1_n_n.lhsIdx j q 0).val = (j 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs0_mid (j : S100000x64.Idx) (q : dot_S100000x128_S128x64_S100000x64_1_0_0_1_n_n.contr.Idx) :
    (dot_S100000x128_S128x64_S100000x64_1_0_0_1_n_n.lhsIdx j q 1).val = (q ⟨0, by decide⟩).val :=
  dot_S100000x128_S128x64_S100000x64_1_0_0_1_n_n.lhsIdx_val_of_single rfl j q
theorem rhs0_mid (j : S100000x64.Idx) (q : dot_S100000x128_S128x64_S100000x64_1_0_0_1_n_n.contr.Idx) :
    (dot_S100000x128_S128x64_S100000x64_1_0_0_1_n_n.rhsIdx j q 0).val = (q ⟨0, by decide⟩).val :=
  dot_S100000x128_S128x64_S100000x64_1_0_0_1_n_n.rhsIdx_val_of_single rfl j q
theorem rhs0_col (j : S100000x64.Idx) (q : dot_S100000x128_S128x64_S100000x64_1_0_0_1_n_n.contr.Idx) :
    (dot_S100000x128_S128x64_S100000x64_1_0_0_1_n_n.rhsIdx j q 1).val = (j 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The sum over the record's contraction index, re-indexed by the contracted coordinate itself: entry `(p, q)` pairs
    row `p` of the left factor with column `q` of the right one. -/
theorem contr0_sum (l : S100000x128.Idx → EReal) (r : S128x64.Idx → EReal) (p : Fin 100000) (q : Fin 64) :
    (∑ k : dot_S100000x128_S128x64_S100000x64_1_0_0_1_n_n.contr.Idx, l (dot_S100000x128_S128x64_S100000x64_1_0_0_1_n_n.lhsIdx (ix2 p q) k) * r (dot_S100000x128_S128x64_S100000x64_1_0_0_1_n_n.rhsIdx (ix2 p q) k))
      = ∑ k : Fin 128, l (ix2 p k) * r (ix2 k q) := by
  rw [← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact lhs0_row _ _
    | ⟨1, _⟩ => exact (lhs0_mid _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (rhs0_mid _ _).trans hk
    | ⟨1, _⟩ => exact rhs0_col _ _)
  rw [el, er]

/-! ### The second product: the 100000 × 64 array by the 64 × 32 weights -/

theorem lhs1_row (j : S100000x32.Idx) (q : dot_S100000x64_S64x32_S100000x32_1_0_0_1_n_n.contr.Idx) :
    (dot_S100000x64_S64x32_S100000x32_1_0_0_1_n_n.lhsIdx j q 0).val = (j 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs1_mid (j : S100000x32.Idx) (q : dot_S100000x64_S64x32_S100000x32_1_0_0_1_n_n.contr.Idx) :
    (dot_S100000x64_S64x32_S100000x32_1_0_0_1_n_n.lhsIdx j q 1).val = (q ⟨0, by decide⟩).val :=
  dot_S100000x64_S64x32_S100000x32_1_0_0_1_n_n.lhsIdx_val_of_single rfl j q
theorem rhs1_mid (j : S100000x32.Idx) (q : dot_S100000x64_S64x32_S100000x32_1_0_0_1_n_n.contr.Idx) :
    (dot_S100000x64_S64x32_S100000x32_1_0_0_1_n_n.rhsIdx j q 0).val = (q ⟨0, by decide⟩).val :=
  dot_S100000x64_S64x32_S100000x32_1_0_0_1_n_n.rhsIdx_val_of_single rfl j q
theorem rhs1_col (j : S100000x32.Idx) (q : dot_S100000x64_S64x32_S100000x32_1_0_0_1_n_n.contr.Idx) :
    (dot_S100000x64_S64x32_S100000x32_1_0_0_1_n_n.rhsIdx j q 1).val = (j 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The sum over the record's contraction index, re-indexed by the contracted coordinate itself: entry `(p, q)` pairs
    row `p` of the left factor with column `q` of the right one. -/
theorem contr1_sum (l : S100000x64.Idx → EReal) (r : S64x32.Idx → EReal) (p : Fin 100000) (q : Fin 32) :
    (∑ k : dot_S100000x64_S64x32_S100000x32_1_0_0_1_n_n.contr.Idx, l (dot_S100000x64_S64x32_S100000x32_1_0_0_1_n_n.lhsIdx (ix2 p q) k) * r (dot_S100000x64_S64x32_S100000x32_1_0_0_1_n_n.rhsIdx (ix2 p q) k))
      = ∑ k : Fin 64, l (ix2 p k) * r (ix2 k q) := by
  rw [← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 p q) ((contrEquiv1 dot_S100000x64_S64x32_S100000x32_1_0_0_1_n_n 64 rfl rfl).symm k) = ix2 p k := funext fun a => Fin.ext (by
    match a with
    | ⟨0, _⟩ => exact lhs1_row _ _
    | ⟨1, _⟩ => exact (lhs1_mid _ _).trans hk)
  have er : dot_S100000x64_S64x32_S100000x32_1_0_0_1_n_n.rhsIdx (ix2 p q) ((contrEquiv1 dot_S100000x64_S64x32_S100000x32_1_0_0_1_n_n 64 rfl rfl).symm k) = ix2 k q := funext fun a => Fin.ext (by
    match a with
    | ⟨0, _⟩ => exact (rhs1_mid _ _).trans hk
    | ⟨1, _⟩ => exact rhs1_col _ _)
  rw [el, er]

/-! ### The products -/

/-- The host's product of `x` with the first weights is `prod1`. -/
theorem dot1_eq (X : FVec Ideal S100000x128 .f32) (W : FVec Ideal S128x64 .f32) :
    Host.dotGeneral dot_S100000x128_S128x64_S100000x64_1_0_0_1_n_n none X W = prod1 X W := by
  funext i
  obtain ⟨r, c, rfl⟩ : ∃ (r : Fin 100000) (c : Fin 64), i = ix2 r c := ⟨i 0, i 1, eq_ix2 i⟩
  simp only [Host.dotGeneral]
  refine (Ideal.dotGeneral_apply dot_S100000x128_S128x64_S100000x64_1_0_0_1_n_n none _ X W (ix2 r c)).trans ?_
  exact contr0_sum X W r c

/-- The bias vector broadcast to one row and then over the 100000 rows reads, at `(r, k)`, entry `k` of the vector. -/
theorem bias_rows (b : FVec Ideal S64 .f32) (r : Fin 100000) (k : Fin 64) :
    (broadcastInDim S100000x64 ![0, 1] bcast_S1x64_S100000x64_0_1 (broadcastInDim S1x64 ![1] bcast_S64_S1x64_1 b)) (ix2 r k) = b (ix1 k) := by
  refine (broadcastInDim_apply _ bcast_S1x64_S100000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  exact broadcastInDim_apply _ bcast_S64_S1x64_1 b (ix2 (0 : Fin 1) k) (ix1 k) (fun a => match a with
    | ⟨0, _⟩ => by show k.val = if (64 : Nat) = 1 then 0 else k.val; rw [if_neg (by decide)])

/-- The zero the clamp compares with, broadcast over the array, is the extended real `0` at every entry. -/
theorem zero_rows (r : Fin 100000) (k : Fin 64) :
    (broadcastInDim S100000x64 ![] bcast_S_S100000x64 (constant (F := Ideal) S_ .f32 0x00000000#32)) (ix2 r k) = 0 := by
  refine (broadcastInDim_apply _ bcast_S_S100000x64 _ (ix2 r k) ix0 (fun a => a.elim0)).trans ?_
  exact Ideal.ofBits_zero_f32

/-- The host's product of the clamped, biased array with the second weights is `biasReluProd`. -/
theorem dot2_eq (H : FVec Ideal S100000x64 .f32) (b : FVec Ideal S64 .f32) (W : FVec Ideal S64x32 .f32) :
    Host.dotGeneral dot_S100000x64_S64x32_S100000x32_1_0_0_1_n_n none
        (maximumf (addf H (broadcastInDim S100000x64 ![0, 1] bcast_S1x64_S100000x64_0_1 (broadcastInDim S1x64 ![1] bcast_S64_S1x64_1 b)))
          (broadcastInDim S100000x64 ![] bcast_S_S100000x64 (constant (F := Ideal) S_ .f32 0x00000000#32))) W
      = biasReluProd H b W := by
  funext i
  obtain ⟨r, c, rfl⟩ : ∃ (r : Fin 100000) (c : Fin 32), i = ix2 r c := ⟨i 0, i 1, eq_ix2 i⟩
  simp only [Host.dotGeneral]
  refine (Ideal.dotGeneral_apply dot_S100000x64_S64x32_S100000x32_1_0_0_1_n_n none _ _ W (ix2 r c)).trans ?_
  refine (contr1_sum _ W r c).trans ?_
  refine Finset.sum_congr rfl fun k _ => ?_
  refine congrArg (· * W (ix2 k c)) ?_
  show max (H (ix2 r k) + (broadcastInDim S100000x64 ![0, 1] bcast_S1x64_S100000x64_0_1 (broadcastInDim S1x64 ![1] bcast_S64_S1x64_1 b)) (ix2 r k))
      ((broadcastInDim S100000x64 ![] bcast_S_S100000x64 (constant (F := Ideal) S_ .f32 0x00000000#32)) (ix2 r k))
    = max (H (ix2 r k) + b (ix1 k)) 0
  rw [bias_rows b r k, zero_rows r k]

end Cert.ReferenceIdeal.Products

end
-- ==== Proof.Bridge.lean ====
/-
  The two programs compute one function.

  `net x e W1 b1 W2 b2` is the two-layer graph convolution as a function of the six arguments:
    `addBias32 (agg32 (max (agg64 (x · W1) + b1) 0 · W2)) b2`,
  the aggregations and the edge weights those of the edge list `e` with one self loop per node, the two matrix
  products plain sums over the contracted axis. The kernel's result is `net` of its arguments: its two products are
  `prod1` and `prod2` of whole arrays, and the bias it holds as one row has the entries of the bias vector. The
  reference's result is `net` of its arguments: its two host products are the same sums. Nothing else differs, so no
  law of the extended reals is needed and the inputs' finiteness is never used.
-/
import proofs.«170525_j78357383348247_1_alg».proof.Proof.KernelFold
import proofs.«170525_j78357383348247_1_alg».proof.Proof.GraphConv
import proofs.«170525_j78357383348247_1_alg».proof.Proof.RefProducts
import proofs.«170525_j78357383348247_1_alg».proof.Proof.MatProducts
import Idealize.ShloMosaic.Lib.ValueLayout
import Idealize.ShloMosaic.Lib.ValueIdx

set_option maxRecDepth 16384

noncomputable section

namespace Cert.Bridge

open Cert.ReferenceIdeal.GraphConv Cert.MatProducts
open Idealize.ShloMosaic Idealize.ShloMosaic.TcCoe Idealize.ShloMosaic.ValueIdx Idealize.SL.Sem

/-- The network as one function of the six arguments. -/
def net (x : (⟨Cert.ReferenceIdeal.S100000x128, .f32⟩ : BufTy).Contents (Elt Ideal))
    (e : (⟨Cert.ReferenceIdeal.S2x1600000, .i32⟩ : BufTy).Contents (Elt Ideal))
    (W1 : (⟨Cert.ReferenceIdeal.S128x64, .f32⟩ : BufTy).Contents (Elt Ideal))
    (b1 : (⟨Cert.ReferenceIdeal.S64, .f32⟩ : BufTy).Contents (Elt Ideal))
    (W2 : (⟨Cert.ReferenceIdeal.S64x32, .f32⟩ : BufTy).Contents (Elt Ideal))
    (b2 : (⟨Cert.ReferenceIdeal.S32, .f32⟩ : BufTy).Contents (Elt Ideal)) :
    (⟨Cert.ReferenceIdeal.S100000x32, .f32⟩ : BufTy).Contents (Elt Ideal) :=
  addBias32 (agg32 (biasReluProd (agg64 (prod1 x W1) (src e) (dst e) (edgeWeight (src e) (dst e))) b1 W2)
    (src e) (dst e) (edgeWeight (src e) (dst e))) b2

/-- The kernel's result array ends at `net` of its arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W7 m ρ c (Proc.devRef .tc Cert.KernelIdeal.main_v61)
      = net (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  refine (Cert.KernelIdeal.Fold.result m ρ c).trans ?_
  rw [prod2_eq_of_row _ _ _ (m ((c : Thread Cert.KernelIdeal.nD Cert.KernelIdeal.τ).loc Cert.KernelIdeal.main_arg3)) (fun k => shapeCast_a_1a_apply _ _ (0 : Fin 1) k)]
  rfl

/-- The reference's result ends at `net` of its arguments. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v64 (F := Ideal) m c
      = net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  refine (Cert.ReferenceIdeal.GraphConv.result_eq (F := Ideal) m c).trans ?_
  rw [Cert.ReferenceIdeal.Products.dot1_eq]
  unfold biasRelu64
  rw [Cert.ReferenceIdeal.Products.dot2_eq]
  rfl

end Cert.Bridge

end
-- ==== Proof.lean ====
/-
  A two-layer graph convolution, its two dense layers on the matrix unit, against its jnp reference.

  The kernel program runs `x · W1` and `max (h + b1) 0 · W2` as two Pallas kernels over 20 blocks of 5000 rows each,
  operands cast to bf16 and accumulated in f32, and leaves the edge normalisation, the gather / scatter-add
  aggregation over the 1.7 million edges and self loops, and the last bias to the host. The reference does the same
  steps in the same order with both products on the host. Read over the extended reals a change of float format is
  the identity and a matrix product — on the matrix unit from a zero accumulator, or the host's — is the plain sum
  over the contracted axis, so both results are one function `net` of the six arguments (Proof/Bridge.lean).

  The pieces: Proof/BlockProduct.lean (a block product at an entry), Proof/RegionArrays.lean (the 20 blocks tile each
  output array, which ends as one function of the arrays its kernel was entered with), Proof/RunValue.lean (the kernel
  program's run with every buffer's final contents named), Proof/KernelFold.lean (those contents, stretch by stretch),
  Proof/GraphConv.lean (the shared host operations, named, and the reference's result as their composition),
  Proof/RefProducts.lean (the reference's products as sums), Proof/MatProducts.lean (the products as functions).
  The ideal pass rewrote no operation, so `preserves` has nothing to state.
-/
import proofs.«170525_j78357383348247_1_alg».proof.Defs
import proofs.«170525_j78357383348247_1_alg».proof.Proof.Gen.Kernel
import proofs.«170525_j78357383348247_1_alg».proof.Proof.Gen.Kernel.Frame
import proofs.«170525_j78357383348247_1_alg».proof.Proof.Gen.KernelIdeal
import proofs.«170525_j78357383348247_1_alg».proof.Proof.Gen.KernelIdeal.Frame
import proofs.«170525_j78357383348247_1_alg».proof.Proof.Gen.ReferenceIdeal
import proofs.«170525_j78357383348247_1_alg».proof.Proof.Gen.Pre_finite_inputs
import proofs.«170525_j78357383348247_1_alg».proof.Proof.RefRunPatched
import proofs.«170525_j78357383348247_1_alg».proof.Proof.RunValue
import proofs.«170525_j78357383348247_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at `net` of the arguments, and the arguments agree. -/
theorem algebraic : Cert.algebraic_KernelIdeal_ReferenceIdeal := by
  intro m ρ m' ρ' _ hagree
  refine ⟨fun c => Cert.Bridge.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Bridge.kernel_value m ρ c), (h c).2⟩) (Cert.KernelIdeal.RunValue.run m ρ)
  · refine (θ_run Cert.ReferenceIdeal.defs _ _).mono (fun _ h c => ⟨(h c).1.trans ?_, (h c).2⟩)
      (Cert.ReferenceIdeal.ValueP.run (F := Ideal) m' ρ')
    rw [Cert.Bridge.reference_value m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
